-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x128 : Shape := ⟨2, ![1, 128]⟩
abbrev S50000x128 : Shape := ⟨2, ![50000, 128]⟩
abbrev S2000x64 : Shape := ⟨2, ![2000, 64]⟩
abbrev S2000x1 : Shape := ⟨2, ![2000, 1]⟩
abbrev S2000x128 : Shape := ⟨2, ![2000, 128]⟩
abbrev S800000x128 : Shape := ⟨2, ![800000, 128]⟩
abbrev S1x64 : Shape := ⟨2, ![1, 64]⟩

abbrev nBuf : Space → Nat
  | .hbm => 55
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S1x64, .f32⟩
  | .hbm, ⟨54, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S64_S1x64 : S64.ShapeCasts S1x64
  shapeCasts_S2000x128_S2000x128 : S2000x128.ShapeCasts S2000x128
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel program's run with the final contents of EVERY buffer that outlives the regions named.
  @main is four segments: the host operations before the first launch, the first launch, the host operations between the
  launches, the second launch. The contents of the buffers at the four boundaries are a fold from the launch memory
  (`W0 … W4`); every weakly fair execution terminates, without a fault, in a state whose unscoped buffers hold `W4`.
  The final reading is kept for every such buffer, not only for the arguments, so that the result array can be read off `W4`.
-/
import proofs.«177367_j14491219657351_2_alg».proof.Proof.Gen.KernelIdeal.Frame

set_option maxRecDepth 16384

noncomputable section

namespace Cert.Sage.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends at the
    last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Sage.Kern

end
-- ==== Proof.LayerSpec.lean ====
/-
  One graph-convolution layer as a function of whole arrays, index by index, on the extended reals.
  For node `p` and output feature `q`, with `agg` the summed neighbour features, `x` the node's own features,
  `inv` the column of reciprocal neighbour counts, `wl`, `wr` the two weight matrices and `b` the bias row:
      lin p q = (Σ_κ (agg p κ · inv p) · wl κ q  +  Σ_κ x p κ · wr κ q)  +  b q.
  The law that joins the two programs: the reciprocal count is `1 / max(cnt, 1)`, and `max(cnt, 1) ≥ 1` is never
  zero, so on the extended reals `a · (1 / max(cnt,1)) = a · (max(cnt,1))⁻¹ = a / max(cnt,1)` for EVERY `a` and `cnt`
  (no finiteness is used); the three summands are then regrouped by commutativity and associativity of `+`.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Dividing by `max c 1` is multiplying by its reciprocal `1 / max c 1`, for every extended real `a` and `c`:
    `max c 1 ≥ 1 > 0` is not zero, so both quotients are products with `(max c 1)⁻¹`, and `1 · y = y`. -/
theorem mul_recip_eq_div (a c : EReal) :
    a * Ideal.div (Ideal.ofBits .f32 0x3F800000#32) (max c (Ideal.ofBits .f32 0x3F800000#32))
      = Ideal.div a (max c (Ideal.ofBits .f32 0x3F800000#32)) := by
  rw [Ideal.ofBits_one_f32]
  have h : max c 1 ≠ 0 := ne_of_gt (lt_of_lt_of_le zero_lt_one (le_max_right c 1))
  unfold Ideal.div
  rw [if_neg h, if_neg h, one_mul]

variable {n k o : Nat}

/-- The layer before its activation, at node `p` and output feature `q`. -/
def linAt (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) (p : Fin n) (q : Fin o) : EReal :=
  ((∑ κ : Fin k, (agg (ix2 p κ) * inv (ix2 p (0 : Fin 1))) * wl (ix2 κ q)) + ∑ κ : Fin k, x (ix2 p κ) * wr (ix2 κ q))
    + b (ix2 (0 : Fin 1) q)

/-- The layer without activation, as a whole array. -/
def lin (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) : (⟨2, ![n, o]⟩ : Shape).Idx → EReal :=
  fun i => linAt agg x inv wl wr b (i 0) (i 1)

/-- The layer followed by `max(·, 0)`, as a whole array. -/
def linRelu (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) : (⟨2, ![n, o]⟩ : Shape).Idx → EReal :=
  fun i => max (linAt agg x inv wl wr b (i 0) (i 1)) (Ideal.ofBits .f32 0x00000000#32)

theorem lin_ix2 (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) (p : Fin n) (q : Fin o) :
    lin agg x inv wl wr b (ix2 p q) = linAt agg x inv wl wr b p q := rfl

theorem linRelu_ix2 (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) (p : Fin n) (q : Fin o) :
    linRelu agg x inv wl wr b (ix2 p q) = max (linAt agg x inv wl wr b p q) (Ideal.ofBits .f32 0x00000000#32) := rfl

theorem lin_apply (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) (i : (⟨2, ![n, o]⟩ : Shape).Idx) :
    lin agg x inv wl wr b i = linAt agg x inv wl wr b (i 0) (i 1) := rfl

theorem linRelu_apply (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) (i : (⟨2, ![n, o]⟩ : Shape).Idx) :
    linRelu agg x inv wl wr b i = max (linAt agg x inv wl wr b (i 0) (i 1)) (Ideal.ofBits .f32 0x00000000#32) := rfl

/-- The layer's value at a node depends only on that node's row of `agg`, `x` and `inv`, on column `q` of the weights
    and on entry `q` of the bias: a block of rows read at row `p` gives what the whole arrays give at the row `p'` it came from. -/
theorem linAt_congr {n' : Nat} (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal)
    (agg' x' : (⟨2, ![n', k]⟩ : Shape).Idx → EReal) (inv' : (⟨2, ![n', 1]⟩ : Shape).Idx → EReal)
    (wl' wr' : (⟨2, ![k, o]⟩ : Shape).Idx → EReal) (b' : (⟨2, ![1, o]⟩ : Shape).Idx → EReal)
    (p : Fin n) (p' : Fin n') (q q' : Fin o)
    (hagg : ∀ κ : Fin k, agg (ix2 p κ) = agg' (ix2 p' κ)) (hx : ∀ κ : Fin k, x (ix2 p κ) = x' (ix2 p' κ))
    (hinv : inv (ix2 p (0 : Fin 1)) = inv' (ix2 p' (0 : Fin 1)))
    (hwl : ∀ κ : Fin k, wl (ix2 κ q) = wl' (ix2 κ q')) (hwr : ∀ κ : Fin k, wr (ix2 κ q) = wr' (ix2 κ q'))
    (hb : b (ix2 (0 : Fin 1) q) = b' (ix2 (0 : Fin 1) q')) :
    linAt agg x inv wl wr b p q = linAt agg' x' inv' wl' wr' b' p' q' := by
  unfold linAt
  rw [hinv, hb]
  refine congrArg₂ (· + ·) (congrArg₂ (· + ·) (Finset.sum_congr rfl fun κ _ => ?_) (Finset.sum_congr rfl fun κ _ => ?_)) rfl
  · rw [hagg κ, hwl κ]
  · rw [hx κ, hwr κ]

/-- The layer in the other program's arrangement: when the reciprocal column holds `1 / max(c, 1)` at node `p`, every
    neighbour term is the quotient `agg p κ / max(c, 1)` (`mul_recip_eq_div`), and the bias is added before the node's own
    product instead of after it (`(A + B) + b = (A + b) + B` in a commutative monoid). -/
theorem linAt_eq_quotient (agg x : (⟨2, ![n, k]⟩ : Shape).Idx → EReal) (inv : (⟨2, ![n, 1]⟩ : Shape).Idx → EReal)
    (wl wr : (⟨2, ![k, o]⟩ : Shape).Idx → EReal) (b : (⟨2, ![1, o]⟩ : Shape).Idx → EReal) (p : Fin n) (q : Fin o) (c : EReal)
    (hinv : inv (ix2 p (0 : Fin 1)) = Ideal.div (Ideal.ofBits .f32 0x3F800000#32) (max c (Ideal.ofBits .f32 0x3F800000#32))) :
    linAt agg x inv wl wr b p q
      = ((∑ κ : Fin k, Ideal.div (agg (ix2 p κ)) (max c (Ideal.ofBits .f32 0x3F800000#32)) * wl (ix2 κ q)) + b (ix2 (0 : Fin 1) q))
          + ∑ κ : Fin k, x (ix2 p κ) * wr (ix2 κ q) := by
  unfold linAt
  rw [hinv, add_right_comm]
  simp only [mul_recip_eq_div]

end Cert.Sage

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The two kernel bodies' stored values, read at an index, on the extended reals.
  A body multiplies its block of summed neighbour features by the block of the reciprocal-count column (one column
  broadcast over the feature lanes), takes the matrix product with `W_l`, adds the product of the node features' block
  with `W_r`, adds the bias row (broadcast over the rows), and, in the first layer only, takes the maximum with zero.
  The two roundings to bf16 before the products are the identity on the extended reals, and a matrix product into a
  zero accumulator is the plain sum over the contracted index. So row `p`, lane `q` of the stored block is the
  specification's `linAt` of the loaded blocks.
-/
import proofs.«177367_j14491219657351_2_alg».proof.Proof.Gen.KernelIdeal.Skeleton
import proofs.«177367_j14491219657351_2_alg».proof.Proof.LayerSpec
import proofs.«177367_j14491219657351_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.Sage.Kern

open Cert.KernelIdeal Cert.KernelIdeal.Gen Idealize.ShloMosaic Idealize.ShloMosaic.ValueIdx

/-! ## The two matrix products at an index -/

/-- Row coordinate of the left operand's index: the output's row. -/
theorem matmul0_l0 (j : S2000x128.Idx) (k : dot_S2000x64_S64x128_S2000x128_1_0_0_1_n_n.contr.Idx) : (dot_S2000x64_S64x128_S2000x128_1_0_0_1_n_n.lhsIdx j k 0).val = (j 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
/-- Column coordinate of the left operand's index: the contracted index. -/
theorem matmul0_l1 (j : S2000x128.Idx) (k : dot_S2000x64_S64x128_S2000x128_1_0_0_1_n_n.contr.Idx) : (dot_S2000x64_S64x128_S2000x128_1_0_0_1_n_n.lhsIdx j k 1).val = (k ⟨0, by decide⟩).val :=
  dot_S2000x64_S64x128_S2000x128_1_0_0_1_n_n.lhsIdx_val_of_single rfl j k
/-- Row coordinate of the right operand's index: the contracted index. -/
theorem matmul0_r0 (j : S2000x128.Idx) (k : dot_S2000x64_S64x128_S2000x128_1_0_0_1_n_n.contr.Idx) : (dot_S2000x64_S64x128_S2000x128_1_0_0_1_n_n.rhsIdx j k 0).val = (k ⟨0, by decide⟩).val :=
  dot_S2000x64_S64x128_S2000x128_1_0_0_1_n_n.rhsIdx_val_of_single rfl j k
/-- Column coordinate of the right operand's index: the output's column. -/
theorem matmul0_r1 (j : S2000x128.Idx) (k : dot_S2000x64_S64x128_S2000x128_1_0_0_1_n_n.contr.Idx) : (dot_S2000x64_S64x128_S2000x128_1_0_0_1_n_n.rhsIdx j k 1).val = (j 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A `[2000, 64] × [64, 128]` product into the zero accumulator: entry `(p, q)` is `Σ_κ l p κ · r κ q`. -/
theorem matmul0_apply (l : FVec Ideal S2000x64 .bf16) (r : FVec Ideal S64x128 .bf16) (p : Fin 2000) (q : Fin 128) :
    matmul dot_S2000x64_S64x128_S2000x128_1_0_0_1_n_n none l r (constant (F := Ideal) S2000x128 .f32 0x00000000#32) (ix2 p q)
      = ∑ κ : Fin 64, l (ix2 p κ) * r (ix2 κ q) := by
  refine (Ideal.matmul_constant_zero_apply dot_S2000x64_S64x128_S2000x128_1_0_0_1_n_n none l r (ix2 p q)).trans ?_
  rw [← Equiv.sum_comp (contrEquiv1 dot_S2000x64_S64x128_S2000x128_1_0_0_1_n_n 64 rfl rfl).symm]
  refine Finset.sum_congr rfl fun κ _ => ?_
  have hk := contrEquiv1_symm_val dot_S2000x64_S64x128_S2000x128_1_0_0_1_n_n 64 rfl rfl κ
  have el : dot_S2000x64_S64x128_S2000x128_1_0_0_1_n_n.lhsIdx (ix2 p q) ((contrEquiv1 dot_S2000x64_S64x128_S2000x128_1_0_0_1_n_n 64 rfl rfl).symm κ) = ix2 p κ :=
    funext fun a => Fin.ext (by
      match a with
      | ⟨0, _⟩ => exact matmul0_l0 _ _
      | ⟨1, _⟩ => exact (matmul0_l1 _ _).trans hk)
  have er : dot_S2000x64_S64x128_S2000x128_1_0_0_1_n_n.rhsIdx (ix2 p q) ((contrEquiv1 dot_S2000x64_S64x128_S2000x128_1_0_0_1_n_n 64 rfl rfl).symm κ) = ix2 κ q :=
    funext fun a => Fin.ext (by
      match a with
      | ⟨0, _⟩ => exact (matmul0_r0 _ _).trans hk
      | ⟨1, _⟩ => exact matmul0_r1 _ _)
  rw [el, er]

/-- Row coordinate of the left operand's index: the output's row. -/
theorem matmul1_l0 (j : S2000x64.Idx) (k : dot_S2000x128_S128x64_S2000x64_1_0_0_1_n_n.contr.Idx) : (dot_S2000x128_S128x64_S2000x64_1_0_0_1_n_n.lhsIdx j k 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- Column coordinate of the left operand's index: the contracted index. -/
theorem matmul1_l1 (j : S2000x64.Idx) (k : dot_S2000x128_S128x64_S2000x64_1_0_0_1_n_n.contr.Idx) : (dot_S2000x128_S128x64_S2000x64_1_0_0_1_n_n.lhsIdx j k 1).val = (k ⟨0, by decide⟩).val :=
  dot_S2000x128_S128x64_S2000x64_1_0_0_1_n_n.lhsIdx_val_of_single rfl j k
/-- Row coordinate of the right operand's index: the contracted index. -/
theorem matmul1_r0 (j : S2000x64.Idx) (k : dot_S2000x128_S128x64_S2000x64_1_0_0_1_n_n.contr.Idx) : (dot_S2000x128_S128x64_S2000x64_1_0_0_1_n_n.rhsIdx j k 0).val = (k ⟨0, by decide⟩).val :=
  dot_S2000x128_S128x64_S2000x64_1_0_0_1_n_n.rhsIdx_val_of_single rfl j k
/-- Column coordinate of the right operand's index: the output's column. -/
theorem matmul1_r1 (j : S2000x64.Idx) (k : dot_S2000x128_S128x64_S2000x64_1_0_0_1_n_n.contr.Idx) : (dot_S2000x128_S128x64_S2000x64_1_0_0_1_n_n.rhsIdx j k 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A `[2000, 128] × [128, 64]` product into the zero accumulator: entry `(p, q)` is `Σ_κ l p κ · r κ q`. -/
theorem matmul1_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ κ : Fin 128, l (ix2 p κ) * r (ix2 κ q) := by
  refine (Ideal.matmul_constant_zero_apply dot_S2000x128_S128x64_S2000x64_1_0_0_1_n_n none l r (ix2 p q)).trans ?_
  rw [← Equiv.sum_comp (contrEquiv1 dot_S2000x128_S128x64_S2000x64_1_0_0_1_n_n 128 rfl rfl).symm]
  refine Finset.sum_congr rfl fun κ _ => ?_
  have hk := contrEquiv1_symm_val dot_S2000x128_S128x64_S2000x64_1_0_0_1_n_n 128 rfl rfl κ
  have el : dot_S2000x128_S128x64_S2000x64_1_0_0_1_n_n.lhsIdx (ix2 p q) ((contrEquiv1 dot_S2000x128_S128x64_S2000x64_1_0_0_1_n_n 128 rfl rfl).symm κ) = ix2 p κ :=
    funext fun a => Fin.ext (by
      match a with
      | ⟨0, _⟩ => exact matmul1_l0 _ _
      | ⟨1, _⟩ => exact (matmul1_l1 _ _).trans hk)
  have er : dot_S2000x128_S128x64_S2000x64_1_0_0_1_n_n.rhsIdx (ix2 p q) ((contrEquiv1 dot_S2000x128_S128x64_S2000x64_1_0_0_1_n_n 128 rfl rfl).symm κ) = ix2 κ q :=
    funext fun a => Fin.ext (by
      match a with
      | ⟨0, _⟩ => exact (matmul1_r0 _ _).trans hk
      | ⟨1, _⟩ => exact matmul1_r1 _ _)
  rw [el, er]

/-! ## The stored values -/

/-- The first kernel's stored block at row `p`, lane `q`: `max(linAt …, 0)` of the loaded blocks. -/
theorem pay0_apply (a : Vec Ideal S2000x64 .f32) (iv : Vec Ideal S2000x1 .f32) (x : Vec Ideal S2000x64 .f32)
    (wl wr : Vec Ideal S64x128 .f32) (b : Vec Ideal S1x128 .f32) (p : Fin 2000) (q : Fin 128) :
    k0_pay1 (F := Ideal) a iv x wl wr b (ix2 p q)
      = max (Cert.Sage.linAt (n := 2000) (k := 64) (o := 128) a x iv wl wr b p q) (Ideal.ofBits .f32 0x00000000#32) := by
  unfold k0_pay1 Cert.Sage.linAt
  rw [maximumf_apply, addf_apply, addf_apply, matmul0_apply, matmul0_apply]
  rw [broadcastTo_1b_ab_apply]
  refine congrArg₂ max (congrArg₂ (· + ·) (congrArg₂ (· + ·) (Finset.sum_congr rfl fun κ _ => ?_) (Finset.sum_congr rfl fun κ _ => ?_)) ?_) rfl
  · rw [truncf_apply, truncf_apply, mulf_apply, shapeCast_self, Cert.LibKeepdims.broadcastTo_a1_ab_apply, shapeCast_self]
  · rw [truncf_apply, truncf_apply]
  · rw [shapeCast_self]

/-- The second kernel's stored block at row `p`, lane `q`: `linAt …` of the loaded blocks. -/
theorem pay1_apply (a : Vec Ideal S2000x128 .f32) (iv : Vec Ideal S2000x1 .f32) (x : Vec Ideal S2000x128 .f32)
    (wl wr : Vec Ideal S128x64 .f32) (b : Vec Ideal S1x64 .f32) (p : Fin 2000) (q : Fin 64) :
    k1_pay1 (F := Ideal) a iv x wl wr b (ix2 p q)
      = Cert.Sage.linAt (n := 2000) (k := 128) (o := 64) a x iv wl wr b p q := by
  unfold k1_pay1 Cert.Sage.linAt
  rw [addf_apply, addf_apply, matmul1_apply, matmul1_apply]
  rw [broadcastTo_1b_ab_apply]
  refine congrArg₂ (· + ·) (congrArg₂ (· + ·) (Finset.sum_congr rfl fun κ _ => ?_) (Finset.sum_congr rfl fun κ _ => ?_)) ?_
  · rw [truncf_apply, truncf_apply, mulf_apply, shapeCast_self, Cert.LibKeepdims.broadcastTo_a1_ab_apply, shapeCast_self]
  · rw [truncf_apply, truncf_apply, shapeCast_self]
  · rw [shapeCast_self]

/-- The same at any index of the block (its two coordinates are the row and the lane). -/
theorem pay0_at (a : Vec Ideal S2000x64 .f32) (iv : Vec Ideal S2000x1 .f32) (x : Vec Ideal S2000x64 .f32)
    (wl wr : Vec Ideal S64x128 .f32) (b : Vec Ideal S1x128 .f32) (j : (⟨2, ![2000, 128]⟩ : Shape).Idx) :
    k0_pay1 (F := Ideal) a iv x wl wr b j
      = max (Cert.Sage.linAt (n := 2000) (k := 64) (o := 128) a x iv wl wr b (j 0) (j 1)) (Ideal.ofBits .f32 0x00000000#32) :=
  (congrArg (k0_pay1 (F := Ideal) a iv x wl wr b) (eq_ix2 j)).trans (pay0_apply a iv x wl wr b (j 0) (j 1))

theorem pay1_at (a : Vec Ideal S2000x128 .f32) (iv : Vec Ideal S2000x1 .f32) (x : Vec Ideal S2000x128 .f32)
    (wl wr : Vec Ideal S128x64 .f32) (b : Vec Ideal S1x64 .f32) (j : (⟨2, ![2000, 64]⟩ : Shape).Idx) :
    k1_pay1 (F := Ideal) a iv x wl wr b j
      = Cert.Sage.linAt (n := 2000) (k := 128) (o := 64) a x iv wl wr b (j 0) (j 1) :=
  (congrArg (k1_pay1 (F := Ideal) a iv x wl wr b) (eq_ix2 j)).trans (pay1_apply a iv x wl wr b (j 0) (j 1))

end Cert.Sage.Kern

end
-- ==== Proof.Region0.lean ====
/-
  Region 0 (the first layer's kernel launch): what the launch leaves in its output array, as one function of the arrays it finds.
  The grid has 25 points; point `t` works on rows `2000·t … 2000·t + 1999`. Its input blocks are those rows of the
  summed-neighbour array, of the node-feature array and of the reciprocal-count column, and the whole of both weight
  matrices and of the bias row; it writes back those rows of the output. Since the body's stored value at a row depends
  only on that row of its inputs (`Cert.Sage.linAt_congr`), what point `t` writes back is block `t` of ONE whole-array
  function — the specification's layer of the arrays found at entry — and the 25 blocks tile all 50000 rows, so the
  output array ends holding that function. Stated for any contents `V` of the buffers when the region is entered.
-/
import proofs.«177367_j14491219657351_2_alg».proof.Proof.Gen.KernelIdeal.Frame
import proofs.«177367_j14491219657351_2_alg».proof.Proof.Payload
import Idealize.ShloMosaic.Lib.Pipeline.Value

set_option maxRecDepth 16384

noncomputable section

namespace Cert.Sage.Kern

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the three row-blocked inputs move with the output's row block, the weights and the
    bias stay at block (0, 0), and the output's row block index is the point's number, at most 24. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every row block is some point's. -/
theorem idx_onto0 : ∀ q0 : Fin 25, ∃ t : Fin cfg0.N, win0_6.index t = ![q0.val, 0] :=
  (by decide +kernel : ∀ q0 : Fin 25, ∃ t : Fin grid0.N, win0_6.index t = ![q0.val, 0])

/-! ## Each input block, read where the output's rows say -/

/-- Summed-neighbour rows: row `y 0` of point `t`'s block is row `2000·t + y 0` of the array. -/
theorem rd0_0 (c : Dev nD) (t : Fin cfg0.N) (y : S2000x64.Idx) (i : S50000x64.Idx)
    (h0 : (i 0).val = win0_6.index t (0 : Fin 2) * 2000 + (y 0).val) (h1 : (i 1).val = (y 1).val) :
    iblk0 V c 0 t y = (V c main_v22 : S50000x64.Idx → EReal) i := by
  obtain ⟨e0, e1, -⟩ := idx_facts0 t
  show (V c main_v22 : S50000x64.Idx → EReal) (((cfg0.win 0).blk t).view.emb y) = _
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 64 + 1 * (y 1).val = (i 1).val; omega

/-- Node-feature rows, the same way. -/
theorem rd0_1 (c : Dev nD) (t : Fin cfg0.N) (y : S2000x64.Idx) (i : S50000x64.Idx)
    (h0 : (i 0).val = win0_6.index t (0 : Fin 2) * 2000 + (y 0).val) (h1 : (i 1).val = (y 1).val) :
    iblk0 V c 1 t y = (V c main_arg0 : S50000x64.Idx → EReal) i := by
  obtain ⟨-, -, e0, e1, -⟩ := idx_facts0 t
  show (V c main_arg0 : S50000x64.Idx → EReal) (((cfg0.win 1).blk t).view.emb y) = _
  refine congrArg _ (funext fun a => Fin.ext ?_)
  match a with
  | ⟨0, _⟩ => show win0_1.index t (0 : Fin 2) * 2000 + 1 * (y 0).val = (i 0).val; omega
  | ⟨1, _⟩ => show win0_1.index t (1 : Fin 2) * 64 + 1 * (y 1).val = (i 1).val; omega

/-- Reciprocal-count rows, the same way. -/
theorem rd0_2 (c : Dev nD) (t : Fin cfg0.N) (y : S2000x1.Idx) (i : S50000x1.Idx)
    (h0 : (i 0).val = win0_6.index t (0 : Fin 2) * 2000 + (y 0).val) (h1 : (i 1).val = (y 1).val) :
    iblk0 V c 2 t y = (V c main_v12 : S50000x1.Idx → EReal) i := by
  obtain ⟨-, -, -, -, e0, e1, -⟩ := idx_facts0 t
  show (V c main_v12 : S50000x1.Idx → EReal) (((cfg0.win 2).blk t).view.emb y) = _
  refine congrArg _ (funext fun a => Fin.ext ?_)
  match a with
  | ⟨0, _⟩ => show win0_2.index t (0 : Fin 2) * 2000 + 1 * (y 0).val = (i 0).val; omega
  | ⟨1, _⟩ => show win0_2.index t (1 : Fin 2) * 1 + 1 * (y 1).val = (i 1).val; omega

/-- The neighbour weights: the block is the whole matrix. -/
theorem rd0_3 (c : Dev nD) (t : Fin cfg0.N) (y : S64x128.Idx) :
    iblk0 V c 3 t y = (V c main_arg2 : S64x128.Idx → EReal) y := by
  obtain ⟨-, -, -, -, -, -, e0, e1, -⟩ := idx_facts0 t
  show (V c main_arg2 : S64x128.Idx → EReal) (((cfg0.win 3).blk t).view.emb y) = _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- The node's own weights: the block is the whole matrix. -/
theorem rd0_4 (c : Dev nD) (t : Fin cfg0.N) (y : S64x128.Idx) :
    iblk0 V c 4 t y = (V c main_arg4 : S64x128.Idx → EReal) y := by
  obtain ⟨-, -, -, -, -, -, -, -, e0, e1, -⟩ := idx_facts0 t
  show (V c main_arg4 : S64x128.Idx → EReal) (((cfg0.win 4).blk t).view.emb y) = _
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 128 + 1 * (y 1).val = (y 1).val; omega

/-- The bias row: the block is the whole row. -/
theorem rd0_5 (c : Dev nD) (t : Fin cfg0.N) (y : S1x128.Idx) :
    iblk0 V c 5 t y = (V c main_v23 : S1x128.Idx → EReal) y := by
  obtain ⟨-, -, -, -, -, -, -, -, -, -, e0, e1, -⟩ := idx_facts0 t
  show (V c main_v23 : S1x128.Idx → EReal) (((cfg0.win 5).blk t).view.emb y) = _
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## What a point writes back, the cover, and the array after the launch -/

/-- The output array's contents after the launch, as a function of the arrays found at entry. -/
abbrev G0 (c : Dev nD) : S50000x128.Idx → EReal :=
  Cert.Sage.linRelu (n := 50000) (k := 64) (o := 128) (V c main_v22) (V c main_arg0) (V c main_v12) (V c main_arg2) (V c main_arg4) (V c main_v23)

/-- What point `t` writes back is block `t` of `G0`. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz0]
  simp only [View.ld_unit_zero (S := S2000x64) hz0, View.ld_unit_zero (S := S2000x1) hz0, View.ld_unit_zero (S := S64x128) hz0, View.ld_unit_zero (S := S1x128) hz0]
  obtain ⟨-, -, -, -, -, -, -, -, -, -, -, -, e6, -⟩ := idx_facts0 t
  funext j
  have hj0 : (j 0).val < 2000 := (j 0).isLt
  have hj1 : (j 1).val < 128 := (j 1).isLt
  refine (pay0_at (iblk0 V c 0 t) (iblk0 V c 2 t) (iblk0 V c 1 t) (iblk0 V c 3 t) (iblk0 V c 4 t) (iblk0 V c 5 t) ((cfg0.win 6).xinj (grid0.coords t) j)).trans ?_
  show _ = max (Cert.Sage.linAt (n := 50000) (k := 64) (o := 128) (V c main_v22) (V c main_arg0) (V c main_v12) (V c main_arg2) (V c main_arg4) (V c main_v23) ((((cfg0.win 6).blk t).view.emb j) 0) ((((cfg0.win 6).blk t).view.emb j) 1)) (Ideal.ofBits .f32 0x00000000#32)
  refine congrArg₂ max (Cert.Sage.linAt_congr (iblk0 V c 0 t) (iblk0 V c 1 t) (iblk0 V c 2 t) (iblk0 V c 3 t) (iblk0 V c 4 t) (iblk0 V c 5 t)
    (V c main_v22) (V c main_arg0) (V c main_v12) (V c main_arg2) (V c main_arg4) (V c main_v23)
    (((cfg0.win 6).xinj (grid0.coords t) j) 0) ((((cfg0.win 6).blk t).view.emb j) 0)
    (((cfg0.win 6).xinj (grid0.coords t) j) 1) ((((cfg0.win 6).blk t).view.emb j) 1)
    (fun κ => rd0_0 V c t _ _ ?_ rfl) (fun κ => rd0_1 V c t _ _ ?_ rfl) (rd0_2 V c t _ _ ?_ rfl)
    (fun κ => (rd0_3 V c t _).trans (congrArg _ ?_)) (fun κ => (rd0_4 V c t _).trans (congrArg _ ?_)) ((rd0_5 V c t _).trans (congrArg _ ?_))) rfl
  · show win0_6.index t (0 : Fin 2) * 2000 + 1 * (j 0).val = win0_6.index t (0 : Fin 2) * 2000 + (j 0).val; omega
  · show win0_6.index t (0 : Fin 2) * 2000 + 1 * (j 0).val = win0_6.index t (0 : Fin 2) * 2000 + (j 0).val; omega
  · show win0_6.index t (0 : Fin 2) * 2000 + 1 * (j 0).val = win0_6.index t (0 : Fin 2) * 2000 + (j 0).val; omega
  · refine funext fun a => Fin.ext ?_
    match a with
    | ⟨0, _⟩ => rfl
    | ⟨1, _⟩ => show (j 1).val = win0_6.index t (1 : Fin 2) * 128 + 1 * (j 1).val; omega
  · refine funext fun a => Fin.ext ?_
    match a with
    | ⟨0, _⟩ => rfl
    | ⟨1, _⟩ => show (j 1).val = win0_6.index t (1 : Fin 2) * 128 + 1 * (j 1).val; omega
  · refine funext fun a => Fin.ext ?_
    match a with
    | ⟨0, _⟩ => rfl
    | ⟨1, _⟩ => show (j 1).val = win0_6.index t (1 : Fin 2) * 128 + 1 * (j 1).val; omega

/-- An index of the array is in point `t`'s block iff each coordinate is in the block's range on its axis. -/
theorem mem_blk0 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24).slice (win0_6.rect t)).set ↔ _
  rw [View.set_slice_whole, Rect.mem_set_unit]
  exact Iff.rfl

/-- Every index of the output array is in the block of the point that owns its row (`row / 2000`). -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the launch: the specification's layer of the arrays found at entry. -/
theorem final0 (c : Dev nD) : (dat0 V c).arrAt 6 cfg0.N = G0 V c :=
  (dat0 V c).arrAt_eq_of_cover 6 (G0 V c) (fun t _ => flushed0_eq V c t) (cover0)

end Cert.Sage.Kern

end
-- ==== Proof.Region1.lean ====
/-
  Region 1 (the second layer's kernel launch): what the launch leaves in its output array, as one function of the arrays it finds.
  The grid has 25 points; point `t` works on rows `2000·t … 2000·t + 1999`. Its input blocks are those rows of the
  summed-neighbour array, of the node-feature array and of the reciprocal-count column, and the whole of both weight
  matrices and of the bias row; it writes back those rows of the output. Since the body's stored value at a row depends
  only on that row of its inputs (`Cert.Sage.linAt_congr`), what point `t` writes back is block `t` of ONE whole-array
  function — the specification's layer of the arrays found at entry — and the 25 blocks tile all 50000 rows, so the
  output array ends holding that function. Stated for any contents `V` of the buffers when the region is entered.
-/
import proofs.«177367_j14491219657351_2_alg».proof.Proof.Gen.KernelIdeal.Frame
import proofs.«177367_j14491219657351_2_alg».proof.Proof.Payload
import Idealize.ShloMosaic.Lib.Pipeline.Value

set_option maxRecDepth 16384

noncomputable section

namespace Cert.Sage.Kern

open Cert.KernelIdeal Cert.KernelIdeal.Gen Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the three row-blocked inputs move with the output's row block, the weights and the
    bias stay at block (0, 0), and the output's row block index is the point's number, at most 24. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 24 :=
  (by decide +kernel : ∀ t : Fin grid1.N, _)

/-- Every row block is some point's. -/
theorem idx_onto1 : ∀ q0 : Fin 25, ∃ t : Fin cfg1.N, win1_6.index t = ![q0.val, 0] :=
  (by decide +kernel : ∀ q0 : Fin 25, ∃ t : Fin grid1.N, win1_6.index t = ![q0.val, 0])

/-! ## Each input block, read where the output's rows say -/

/-- Summed-neighbour rows: row `y 0` of point `t`'s block is row `2000·t + y 0` of the array. -/
theorem rd1_0 (c : Dev nD) (t : Fin cfg1.N) (y : S2000x128.Idx) (i : S50000x128.Idx)
    (h0 : (i 0).val = win1_6.index t (0 : Fin 2) * 2000 + (y 0).val) (h1 : (i 1).val = (y 1).val) :
    iblk1 V c 0 t y = (V c main_v34 : S50000x128.Idx → EReal) i := by
  obtain ⟨e0, e1, -⟩ := idx_facts1 t
  show (V c main_v34 : S50000x128.Idx → EReal) (((cfg1.win 0).blk t).view.emb y) = _
  refine congrArg _ (funext fun a => Fin.ext ?_)
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- Node-feature rows, the same way. -/
theorem rd1_1 (c : Dev nD) (t : Fin cfg1.N) (y : S2000x128.Idx) (i : S50000x128.Idx)
    (h0 : (i 0).val = win1_6.index t (0 : Fin 2) * 2000 + (y 0).val) (h1 : (i 1).val = (y 1).val) :
    iblk1 V c 1 t y = (V c main_v24 : S50000x128.Idx → EReal) i := by
  obtain ⟨-, -, e0, e1, -⟩ := idx_facts1 t
  show (V c main_v24 : S50000x128.Idx → EReal) (((cfg1.win 1).blk t).view.emb y) = _
  refine congrArg _ (funext fun a => Fin.ext ?_)
  match a with
  | ⟨0, _⟩ => show win1_1.index t (0 : Fin 2) * 2000 + 1 * (y 0).val = (i 0).val; omega
  | ⟨1, _⟩ => show win1_1.index t (1 : Fin 2) * 128 + 1 * (y 1).val = (i 1).val; omega

/-- Reciprocal-count rows, the same way. -/
theorem rd1_2 (c : Dev nD) (t : Fin cfg1.N) (y : S2000x1.Idx) (i : S50000x1.Idx)
    (h0 : (i 0).val = win1_6.index t (0 : Fin 2) * 2000 + (y 0).val) (h1 : (i 1).val = (y 1).val) :
    iblk1 V c 2 t y = (V c main_v12 : S50000x1.Idx → EReal) i := by
  obtain ⟨-, -, -, -, e0, e1, -⟩ := idx_facts1 t
  show (V c main_v12 : S50000x1.Idx → EReal) (((cfg1.win 2).blk t).view.emb y) = _
  refine congrArg _ (funext fun a => Fin.ext ?_)
  match a with
  | ⟨0, _⟩ => show win1_2.index t (0 : Fin 2) * 2000 + 1 * (y 0).val = (i 0).val; omega
  | ⟨1, _⟩ => show win1_2.index t (1 : Fin 2) * 1 + 1 * (y 1).val = (i 1).val; omega

/-- The neighbour weights: the block is the whole matrix. -/
theorem rd1_3 (c : Dev nD) (t : Fin cfg1.N) (y : S128x64.Idx) :
    iblk1 V c 3 t y = (V c main_arg5 : S128x64.Idx → EReal) y := by
  obtain ⟨-, -, -, -, -, -, e0, e1, -⟩ := idx_facts1 t
  show (V c main_arg5 : S128x64.Idx → EReal) (((cfg1.win 3).blk t).view.emb y) = _
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- The node's own weights: the block is the whole matrix. -/
theorem rd1_4 (c : Dev nD) (t : Fin cfg1.N) (y : S128x64.Idx) :
    iblk1 V c 4 t y = (V c main_arg7 : S128x64.Idx → EReal) y := by
  obtain ⟨-, -, -, -, -, -, -, -, e0, e1, -⟩ := idx_facts1 t
  show (V c main_arg7 : S128x64.Idx → EReal) (((cfg1.win 4).blk t).view.emb y) = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

/-- The bias row: the block is the whole row. -/
theorem rd1_5 (c : Dev nD) (t : Fin cfg1.N) (y : S1x64.Idx) :
    iblk1 V c 5 t y = (V c main_v35 : S1x64.Idx → EReal) y := by
  obtain ⟨-, -, -, -, -, -, -, -, -, -, e0, e1, -⟩ := idx_facts1 t
  show (V c main_v35 : S1x64.Idx → EReal) (((cfg1.win 5).blk t).view.emb y) = _
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-! ## What a point writes back, the cover, and the array after the launch -/

/-- The output array's contents after the launch, as a function of the arrays found at entry. -/
abbrev G1 (c : Dev nD) : S50000x64.Idx → EReal :=
  Cert.Sage.lin (n := 50000) (k := 128) (o := 64) (V c main_v34) (V c main_v24) (V c main_v12) (V c main_arg5) (V c main_arg7) (V c main_v35)

/-- What point `t` writes back is block `t` of `G1`. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S2000x1) hz1, View.ld_unit_zero (S := S128x64) hz1, View.ld_unit_zero (S := S1x64) hz1]
  obtain ⟨-, -, -, -, -, -, -, -, -, -, -, -, e6, -⟩ := idx_facts1 t
  funext j
  have hj0 : (j 0).val < 2000 := (j 0).isLt
  have hj1 : (j 1).val < 64 := (j 1).isLt
  refine (pay1_at (iblk1 V c 0 t) (iblk1 V c 2 t) (iblk1 V c 1 t) (iblk1 V c 3 t) (iblk1 V c 4 t) (iblk1 V c 5 t) ((cfg1.win 6).xinj (grid1.coords t) j)).trans ?_
  show _ = Cert.Sage.linAt (n := 50000) (k := 128) (o := 64) (V c main_v34) (V c main_v24) (V c main_v12) (V c main_arg5) (V c main_arg7) (V c main_v35) ((((cfg1.win 6).blk t).view.emb j) 0) ((((cfg1.win 6).blk t).view.emb j) 1)
  refine (Cert.Sage.linAt_congr (iblk1 V c 0 t) (iblk1 V c 1 t) (iblk1 V c 2 t) (iblk1 V c 3 t) (iblk1 V c 4 t) (iblk1 V c 5 t)
    (V c main_v34) (V c main_v24) (V c main_v12) (V c main_arg5) (V c main_arg7) (V c main_v35)
    (((cfg1.win 6).xinj (grid1.coords t) j) 0) ((((cfg1.win 6).blk t).view.emb j) 0)
    (((cfg1.win 6).xinj (grid1.coords t) j) 1) ((((cfg1.win 6).blk t).view.emb j) 1)
    (fun κ => rd1_0 V c t _ _ ?_ rfl) (fun κ => rd1_1 V c t _ _ ?_ rfl) (rd1_2 V c t _ _ ?_ rfl)
    (fun κ => (rd1_3 V c t _).trans (congrArg _ ?_)) (fun κ => (rd1_4 V c t _).trans (congrArg _ ?_)) ((rd1_5 V c t _).trans (congrArg _ ?_)))
  · show win1_6.index t (0 : Fin 2) * 2000 + 1 * (j 0).val = win1_6.index t (0 : Fin 2) * 2000 + (j 0).val; omega
  · show win1_6.index t (0 : Fin 2) * 2000 + 1 * (j 0).val = win1_6.index t (0 : Fin 2) * 2000 + (j 0).val; omega
  · show win1_6.index t (0 : Fin 2) * 2000 + 1 * (j 0).val = win1_6.index t (0 : Fin 2) * 2000 + (j 0).val; omega
  · refine funext fun a => Fin.ext ?_
    match a with
    | ⟨0, _⟩ => rfl
    | ⟨1, _⟩ => show (j 1).val = win1_6.index t (1 : Fin 2) * 64 + 1 * (j 1).val; omega
  · refine funext fun a => Fin.ext ?_
    match a with
    | ⟨0, _⟩ => rfl
    | ⟨1, _⟩ => show (j 1).val = win1_6.index t (1 : Fin 2) * 64 + 1 * (j 1).val; omega
  · refine funext fun a => Fin.ext ?_
    match a with
    | ⟨0, _⟩ => rfl
    | ⟨1, _⟩ => show (j 1).val = win1_6.index t (1 : Fin 2) * 64 + 1 * (j 1).val; omega

/-- An index of the array is in point `t`'s block iff each coordinate is in the block's range on its axis. -/
theorem mem_blk1 (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v36).slice (win1_6.rect t)).set ↔ _
  rw [View.set_slice_whole, Rect.mem_set_unit]
  exact Iff.rfl

/-- Every index of the output array is in the block of the point that owns its row (`row / 2000`). -/
theorem cover1 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ := idx_onto1 ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 64 ≤ (i 1).val ∧ (i 1).val < win1_6.index t (1 : Fin 2) * 64 + 64; omega

/-- THE ARRAY after the launch: the specification's layer of the arrays found at entry. -/
theorem final1 (c : Dev nD) : (dat1 V c).arrAt 6 cfg1.N = G1 V c :=
  (dat1 V c).arrAt_eq_of_cover 6 (G1 V c) (fun t _ => flushed1_eq V c t) (cover1)

end Cert.Sage.Kern

end
-- ==== Proof.RefLayers.lean ====
/-
  The reference's two layers are the specification's layer function.
  Read one operation at a time, the reference's first layer at node `p`, feature `q` is
      max( (Σ_κ agg p κ / max(cnt p, 1) · W_l κ q  +  b q)  +  Σ_κ x p κ · W_r κ q ,  0 ),
  and its second layer the same without the maximum, on the first layer's result. That is the specification's layer
  (`Cert.Sage.linAt_eq_quotient`) for ANY reciprocal column holding `1 / max(cnt p, 1)` and any bias row holding `b`.
  The gathered-and-summed neighbour array `agg` and the count `cnt` are carried as the reference's own stages and never opened.
-/
import proofs.«177367_j14491219657351_2_alg».proof.Proof.Gen.ReferenceIdeal.Read
import proofs.«177367_j14491219657351_2_alg».proof.Proof.LayerSpec

noncomputable section

namespace Cert.Sage.Ref

open Cert.ReferenceIdeal Cert.ReferenceIdeal.Read Idealize.ShloMosaic Idealize.ShloMosaic.ValueIdx

/-! ## Where each operand is read, in coordinates -/

theorem l23 (p : Fin 50000) (q : Fin 128) (k : Fin 64) : lidx_main_v23 (ix2 p q) k = ix2 p k :=
  funext fun a => Fin.ext (by match a with | ⟨0, _⟩ => rfl | ⟨1, _⟩ => rfl)
theorem r23 (p : Fin 50000) (q : Fin 128) (k : Fin 64) : ridx_main_v23 (ix2 p q) k = ix2 k q :=
  funext fun a => Fin.ext (by match a with | ⟨0, _⟩ => rfl | ⟨1, _⟩ => rfl)
theorem l27 (p : Fin 50000) (q : Fin 128) (k : Fin 64) : lidx_main_v27 (ix2 p q) k = ix2 p k :=
  funext fun a => Fin.ext (by match a with | ⟨0, _⟩ => rfl | ⟨1, _⟩ => rfl)
theorem r27 (p : Fin 50000) (q : Fin 128) (k : Fin 64) : ridx_main_v27 (ix2 p q) k = ix2 k q :=
  funext fun a => Fin.ext (by match a with | ⟨0, _⟩ => rfl | ⟨1, _⟩ => rfl)
theorem c21 (p : Fin 50000) (k : Fin 64) : idx_main_v20 (idx_main_v21 (ix2 p k)) = ix1 p :=
  funext fun a => Fin.ext (by match a with | ⟨0, _⟩ => rfl)
theorem b25 (p : Fin 50000) (q : Fin 128) : idx_main_v24 (idx_main_v25 (ix2 p q)) = ix1 q :=
  funext fun a => Fin.ext (by match a with | ⟨0, _⟩ => rfl)

theorem l53 (p : Fin 50000) (q : Fin 64) (k : Fin 128) : lidx_main_v53 (ix2 p q) k = ix2 p k :=
  funext fun a => Fin.ext (by match a with | ⟨0, _⟩ => rfl | ⟨1, _⟩ => rfl)
theorem r53 (p : Fin 50000) (q : Fin 64) (k : Fin 128) : ridx_main_v53 (ix2 p q) k = ix2 k q :=
  funext fun a => Fin.ext (by match a with | ⟨0, _⟩ => rfl | ⟨1, _⟩ => rfl)
theorem l57 (p : Fin 50000) (q : Fin 64) (k : Fin 128) : lidx_main_v57 (ix2 p q) k = ix2 p k :=
  funext fun a => Fin.ext (by match a with | ⟨0, _⟩ => rfl | ⟨1, _⟩ => rfl)
theorem r57 (p : Fin 50000) (q : Fin 64) (k : Fin 128) : ridx_main_v57 (ix2 p q) k = ix2 k q :=
  funext fun a => Fin.ext (by match a with | ⟨0, _⟩ => rfl | ⟨1, _⟩ => rfl)
theorem c51 (p : Fin 50000) (k : Fin 128) : idx_main_v50 (idx_main_v51 (ix2 p k)) = ix1 p :=
  funext fun a => Fin.ext (by match a with | ⟨0, _⟩ => rfl)
theorem b55 (p : Fin 50000) (q : Fin 64) : idx_main_v54 (idx_main_v55 (ix2 p q)) = ix1 q :=
  funext fun a => Fin.ext (by match a with | ⟨0, _⟩ => rfl)

/-! ## The two layers -/

/-- The first layer: the reference's `relu(mean · W_l + b + x · W_r)` is the specification's layer with activation, for any
    reciprocal column `inv` holding `1 / max(cnt p, 1)` and any bias row `b` holding the bias vector. -/
theorem layer1 (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal))
    (inv : (⟨2, ![50000, 1]⟩ : Shape).Idx → EReal) (b : (⟨2, ![1, 128]⟩ : Shape).Idx → EReal)
    (hinv : ∀ p : Fin 50000, inv (ix2 p (0 : Fin 1))
      = Ideal.div (Ideal.ofBits .f32 0x3F800000#32) (max (val_main_v17 (F := Ideal) x1 (ix1 p)) (Ideal.ofBits .f32 0x3F800000#32)))
    (hb : ∀ q : Fin 128, b (ix2 (0 : Fin 1) q) = x3 (ix1 q)) :
    val_main_v29 (F := Ideal) x0 x1 x2 x3 x4
      = Cert.Sage.linRelu (n := 50000) (k := 64) (o := 128) (val_main_v13 (F := Ideal) x0 x1) x0 inv x2 x4 b := by
  funext i
  obtain ⟨p, q, rfl⟩ : ∃ (p : Fin 50000) (q : Fin 128), i = ix2 p q := ⟨i 0, i 1, eq_ix2 i⟩
  rw [Cert.Sage.linRelu_ix2, Cert.Sage.linAt_eq_quotient _ _ _ _ _ _ p q _ (hinv p), hb q]
  rw [val_main_v29_apply, val_main_v28_apply, val_main_v26_apply, val_main_v23_apply, val_main_v25_apply, val_main_v24_apply,
    val_main_v27_apply, val_main_call0_v0_apply, val_main_call0_cst_apply]
  rw [b25]
  refine congrArg₂ max (congrArg₂ (· + ·) (congrArg₂ (· + ·) (Finset.sum_congr rfl fun κ _ => ?_) rfl) (Finset.sum_congr rfl fun κ _ => ?_)) rfl
  · rw [l23, r23, val_main_v22_apply, val_main_v21_apply, val_main_v20_apply, c21, val_main_v19_apply, val_main_v18_apply, val_main_cst_3_apply]
    rfl
  · rw [l27, r27]

/-- The second layer: the reference's `mean · W_l + b + h · W_r` on the first layer's result `h` is the specification's
    layer without activation. -/
theorem layer2 (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal))
    (inv : (⟨2, ![50000, 1]⟩ : Shape).Idx → EReal) (b : (⟨2, ![1, 64]⟩ : Shape).Idx → EReal)
    (hinv : ∀ p : Fin 50000, inv (ix2 p (0 : Fin 1))
      = Ideal.div (Ideal.ofBits .f32 0x3F800000#32) (max (val_main_v47 (F := Ideal) x1 (ix1 p)) (Ideal.ofBits .f32 0x3F800000#32)))
    (hb : ∀ q : Fin 64, b (ix2 (0 : Fin 1) q) = x6 (ix1 q)) :
    val_main_v58 (F := Ideal) x0 x1 x2 x3 x4 x5 x6 x7
      = Cert.Sage.lin (n := 50000) (k := 128) (o := 64) (val_main_v43 (F := Ideal) x0 x1 x2 x3 x4) (val_main_v29 (F := Ideal) x0 x1 x2 x3 x4) inv x5 x7 b := by
  funext i
  obtain ⟨p, q, rfl⟩ : ∃ (p : Fin 50000) (q : Fin 64), i = ix2 p q := ⟨i 0, i 1, eq_ix2 i⟩
  rw [Cert.Sage.lin_ix2, Cert.Sage.linAt_eq_quotient _ _ _ _ _ _ p q _ (hinv p), hb q]
  rw [val_main_v58_apply, val_main_v56_apply, val_main_v53_apply, val_main_v55_apply, val_main_v54_apply, val_main_v57_apply]
  rw [b55]
  refine congrArg₂ (· + ·) (congrArg₂ (· + ·) (Finset.sum_congr rfl fun κ _ => ?_) rfl) (Finset.sum_congr rfl fun κ _ => ?_)
  · rw [l53, r53, val_main_v52_apply, val_main_v51_apply, val_main_v50_apply, c51, val_main_v49_apply, val_main_v48_apply, val_main_cst_9_apply]
    rfl
  · rw [l57, r57]

end Cert.Sage.Ref

end
-- ==== Proof.Bridge.lean ====
/-
  The idealized kernel program's result array is the reference's result term of the same arguments.
  Boundary by boundary through @main:
  * before the first launch the host has computed the summed neighbour features (a gather along the source nodes, a
    scatter-add along the target nodes), the neighbour count (a scatter-add of ones) and from it the reciprocal column
    `1 / max(cnt, 1)`, and the bias as a row — the gather and the two scatter-adds are the reference's own, applied to the
    same arguments, and are carried as the reference's stages, never opened;
  * the first launch leaves the specification's layer with activation of those arrays, which is the reference's first
    layer (`Cert.Sage.Ref.layer1`);
  * between the launches the host gathers and scatter-adds THAT array, again by the reference's own operations;
  * the second launch leaves the specification's layer of those, which is the reference's result (`Cert.Sage.Ref.layer2`).
  The neighbour count is computed once here and twice in the reference: the same operations of the same argument.
-/
import proofs.«177367_j14491219657351_2_alg».proof.Proof.Region0
import proofs.«177367_j14491219657351_2_alg».proof.Proof.Region1
import proofs.«177367_j14491219657351_2_alg».proof.Proof.RefLayers
import Idealize.ShloMosaic.Lib.StableHlo.Run
import Idealize.ShloMosaic.Lib.ValueLayout

set_option maxRecDepth 16384

noncomputable section

namespace Cert.Sage.Bridge

open Cert.KernelIdeal Cert.KernelIdeal.Gen Cert.ReferenceIdeal.Read
open Idealize.ShloMosaic Idealize.ShloMosaic.ValueIdx Idealize.ShloMosaic.TcCoe Idealize.SL.Sem Idealize.ShloMosaic.StableHlo

/-! ## A launch's output array as the reference's stage, for any entry contents that hold the right arrays -/

section Generic

variable (V : (c : Dev nD) → (b : Ref sig .tc) → Buf (Elt Ideal) ((c : Thread nD τ).loc b))

/-- The first launch: if at entry the summed-neighbour array, the node features, the weights hold the reference's values, the
    reciprocal column holds `1 / max(cnt, 1)` and the bias row the bias, the output ends as the reference's first layer. -/
theorem region0_value (c : Dev nD) (a0 : (⟨2, ![50000, 64]⟩ : Shape).Idx → EReal) (a1 : (⟨Cert.ReferenceIdeal.S2x800000, .i32⟩ : BufTy).Contents (Elt Ideal))
    (a2 : (⟨2, ![64, 128]⟩ : Shape).Idx → EReal) (a3 : (⟨1, ![128]⟩ : Shape).Idx → EReal) (a4 : (⟨2, ![64, 128]⟩ : Shape).Idx → EReal)
    (h22 : (V c main_v22 : S50000x64.Idx → EReal) = val_main_v13 (F := Ideal) a0 a1)
    (h0 : (V c main_arg0 : S50000x64.Idx → EReal) = a0) (h2 : (V c main_arg2 : S64x128.Idx → EReal) = a2)
    (h4 : (V c main_arg4 : S64x128.Idx → EReal) = a4)
    (h12 : ∀ p : Fin 50000, (V c main_v12 : S50000x1.Idx → EReal) (ix2 p (0 : Fin 1))
      = Ideal.div (Ideal.ofBits .f32 0x3F800000#32) (max (val_main_v17 (F := Ideal) a1 (ix1 p)) (Ideal.ofBits .f32 0x3F800000#32)))
    (h23 : ∀ q : Fin 128, (V c main_v23 : S1x128.Idx → EReal) (ix2 (0 : Fin 1) q) = a3 (ix1 q)) :
    ((dat0 V c).arrAt 6 cfg0.N : S50000x128.Idx → EReal) = val_main_v29 (F := Ideal) a0 a1 a2 a3 a4 := by
  rw [Cert.Sage.Kern.final0 V c]
  show Cert.Sage.linRelu (n := 50000) (k := 64) (o := 128) (V c main_v22) (V c main_arg0) (V c main_v12) (V c main_arg2) (V c main_arg4) (V c main_v23) = _
  rw [h22, h0, h2, h4]
  exact (Cert.Sage.Ref.layer1 a0 a1 a2 a3 a4 _ _ h12 h23).symm

/-- The second launch, the same way, on the first layer's result. -/
theorem region1_value (c : Dev nD) (a0 : (⟨2, ![50000, 64]⟩ : Shape).Idx → EReal) (a1 : (⟨Cert.ReferenceIdeal.S2x800000, .i32⟩ : BufTy).Contents (Elt Ideal))
    (a2 : (⟨2, ![64, 128]⟩ : Shape).Idx → EReal) (a3 : (⟨1, ![128]⟩ : Shape).Idx → EReal) (a4 : (⟨2, ![64, 128]⟩ : Shape).Idx → EReal)
    (a5 : (⟨2, ![128, 64]⟩ : Shape).Idx → EReal) (a6 : (⟨1, ![64]⟩ : Shape).Idx → EReal) (a7 : (⟨2, ![128, 64]⟩ : Shape).Idx → EReal)
    (h34 : (V c main_v34 : S50000x128.Idx → EReal) = val_main_v43 (F := Ideal) a0 a1 a2 a3 a4)
    (h24 : (V c main_v24 : S50000x128.Idx → EReal) = val_main_v29 (F := Ideal) a0 a1 a2 a3 a4)
    (h5 : (V c main_arg5 : S128x64.Idx → EReal) = a5) (h7 : (V c main_arg7 : S128x64.Idx → EReal) = a7)
    (h12 : ∀ p : Fin 50000, (V c main_v12 : S50000x1.Idx → EReal) (ix2 p (0 : Fin 1))
      = Ideal.div (Ideal.ofBits .f32 0x3F800000#32) (max (val_main_v47 (F := Ideal) a1 (ix1 p)) (Ideal.ofBits .f32 0x3F800000#32)))
    (h35 : ∀ q : Fin 64, (V c main_v35 : S1x64.Idx → EReal) (ix2 (0 : Fin 1) q) = a6 (ix1 q)) :
    ((dat1 V c).arrAt 6 cfg1.N : S50000x64.Idx → EReal) = val_main_v58 (F := Ideal) a0 a1 a2 a3 a4 a5 a6 a7 := by
  rw [Cert.Sage.Kern.final1 V c]
  show Cert.Sage.lin (n := 50000) (k := 128) (o := 64) (V c main_v34) (V c main_v24) (V c main_v12) (V c main_arg5) (V c main_arg7) (V c main_v35) = _
  rw [h34, h24, h5, h7]
  exact (Cert.Sage.Ref.layer2 a0 a1 a2 a3 a4 a5 a6 a7 _ _ h12 h35).symm

end Generic

/-- The neighbour count the reference computes a second time is the first one: the same operations of the same argument. -/
theorem count_again (a1 : (⟨Cert.ReferenceIdeal.S2x800000, .i32⟩ : BufTy).Contents (Elt Ideal)) :
    val_main_v47 (F := Ideal) a1 = val_main_v17 (F := Ideal) a1 := rfl

/-! ## The boundaries' contents -/

variable (m : (ℓ : Loc nD τ sig) → Buf (Elt Ideal) ℓ) (ρ : Dev nD → PrngReg)

/-- The argument arrays at launch. -/
abbrev A0 (c : Dev nD) : S50000x64.Idx → EReal := m ((c : Thread nD τ).loc main_arg0)
abbrev A1 (c : Dev nD) : (⟨S2x800000, .i32⟩ : BufTy).Contents (Elt Ideal) := m ((c : Thread nD τ).loc main_arg1)
abbrev A2 (c : Dev nD) : S64x128.Idx → EReal := m ((c : Thread nD τ).loc main_arg2)
abbrev A3 (c : Dev nD) : S128.Idx → EReal := m ((c : Thread nD τ).loc main_arg3)
abbrev A4 (c : Dev nD) : S64x128.Idx → EReal := m ((c : Thread nD τ).loc main_arg4)
abbrev A5 (c : Dev nD) : S128x64.Idx → EReal := m ((c : Thread nD τ).loc main_arg5)
abbrev A6 (c : Dev nD) : S64.Idx → EReal := m ((c : Thread nD τ).loc main_arg6)
abbrev A7 (c : Dev nD) : S128x64.Idx → EReal := m ((c : Thread nD τ).loc main_arg7)

/-! ### Before the first launch -/

theorem w1_v22 (c : Dev nD) : (W1 m ρ c (Proc.devRef .tc main_v22) : S50000x64.Idx → EReal) = val_main_v13 (F := Ideal) (A0 m c) (A1 m c) := by
  show StableHlo.after hostOps0 (W0 m ρ c) (Proc.devRef .tc main_v22) = _
  after_results_simp <;> rfl

theorem w1_arg0 (c : Dev nD) : (W1 m ρ c (Proc.devRef .tc main_arg0) : S50000x64.Idx → EReal) = A0 m c := by
  show StableHlo.after hostOps0 (W0 m ρ c) (Proc.devRef .tc main_arg0) = _
  after_results_simp <;> rfl
theorem w1_arg2 (c : Dev nD) : (W1 m ρ c (Proc.devRef .tc main_arg2) : S64x128.Idx → EReal) = A2 m c := by
  show StableHlo.after hostOps0 (W0 m ρ c) (Proc.devRef .tc main_arg2) = _
  after_results_simp <;> rfl
theorem w1_arg4 (c : Dev nD) : (W1 m ρ c (Proc.devRef .tc main_arg4) : S64x128.Idx → EReal) = A4 m c := by
  show StableHlo.after hostOps0 (W0 m ρ c) (Proc.devRef .tc main_arg4) = _
  after_results_simp <;> rfl
theorem w1_arg5 (c : Dev nD) : (W1 m ρ c (Proc.devRef .tc main_arg5) : S128x64.Idx → EReal) = A5 m c := by
  show StableHlo.after hostOps0 (W0 m ρ c) (Proc.devRef .tc main_arg5) = _
  after_results_simp <;> rfl
theorem w1_arg6 (c : Dev nD) : (W1 m ρ c (Proc.devRef .tc main_arg6) : S64.Idx → EReal) = A6 m c := by
  show StableHlo.after hostOps0 (W0 m ρ c) (Proc.devRef .tc main_arg6) = _
  after_results_simp <;> rfl
theorem w1_arg7 (c : Dev nD) : (W1 m ρ c (Proc.devRef .tc main_arg7) : S128x64.Idx → EReal) = A7 m c := by
  show StableHlo.after hostOps0 (W0 m ρ c) (Proc.devRef .tc main_arg7) = _
  after_results_simp <;> rfl
theorem w1_v1 (c : Dev nD) : (W1 m ρ c (Proc.devRef .tc main_v1) : S800000.Idx → BitVec 32) = val_main_v1 (F := Ideal) (A1 m c) := by
  show StableHlo.after hostOps0 (W0 m ρ c) (Proc.devRef .tc main_v1) = _
  after_results_simp <;> rfl
theorem w1_v3 (c : Dev nD) : (W1 m ρ c (Proc.devRef .tc main_v3) : S800000.Idx → BitVec 32) = val_main_v3 (F := Ideal) (A1 m c) := by
  show StableHlo.after hostOps0 (W0 m ρ c) (Proc.devRef .tc main_v3) = _
  after_results_simp <;> rfl

/-- The reciprocal column: entry `(p, 0)` is `1 / max(cnt p, 1)`, the count being the reference's scatter-add of ones. -/
theorem w1_v12 (c : Dev nD) (p : Fin 50000) : (W1 m ρ c (Proc.devRef .tc main_v12) : S50000x1.Idx → EReal) (ix2 p (0 : Fin 1))
    = Ideal.div (Ideal.ofBits .f32 0x3F800000#32) (max (val_main_v17 (F := Ideal) (A1 m c) (ix1 p)) (Ideal.ofBits .f32 0x3F800000#32)) := by
  have e : (W1 m ρ c (Proc.devRef .tc main_v12) : S50000x1.Idx → EReal)
      = shapeCast S50000x1 (Host.divf (F := Ideal) (φ := .f32) (val_main_v18 (F := Ideal)) (val_main_v19 (F := Ideal) (A1 m c)) : S50000.Idx → EReal) shapeCasts_S50000_S50000x1 := by
    show StableHlo.after hostOps0 (W0 m ρ c) (Proc.devRef .tc main_v12) = _
    after_results_simp <;> rfl
  rw [e, Cert.LibKeepdims.shapeCast_a_a1_apply]
  have hd : ∀ (a b : (⟨1, ![50000]⟩ : Shape).Idx → EReal) (i : (⟨1, ![50000]⟩ : Shape).Idx),
      (Host.divf (F := Ideal) (φ := .f32) a b : (⟨1, ![50000]⟩ : Shape).Idx → EReal) i = Ideal.div (a i) (b i) := fun _ _ _ => rfl
  rw [hd, val_main_v19_apply, val_main_v18_apply, val_main_cst_3_apply]
  rfl

/-- The bias of the first layer as a row. -/
theorem w1_v23 (c : Dev nD) (q : Fin 128) : (W1 m ρ c (Proc.devRef .tc main_v23) : S1x128.Idx → EReal) (ix2 (0 : Fin 1) q) = A3 m c (ix1 q) := by
  have e : (W1 m ρ c (Proc.devRef .tc main_v23) : S1x128.Idx → EReal) = shapeCast S1x128 (A3 m c) shapeCasts_S128_S1x128 := by
    show StableHlo.after hostOps0 (W0 m ρ c) (Proc.devRef .tc main_v23) = _
    after_results_simp <;> rfl
  rw [e, shapeCast_a_1a_apply]

/-! ### After the first launch -/

/-- The first launch's output array is the reference's first layer. -/
theorem w2_v24 (c : Dev nD) : (W2 m ρ c (Proc.devRef .tc main_v24) : S50000x128.Idx → EReal)
    = val_main_v29 (F := Ideal) (A0 m c) (A1 m c) (A2 m c) (A3 m c) (A4 m c) :=
  (W2_arr m ρ c 6).trans (region0_value (V1 m ρ) c (A0 m c) (A1 m c) (A2 m c) (A3 m c) (A4 m c)
    (w1_v22 m ρ c) (w1_arg0 m ρ c) (w1_arg2 m ρ c) (w1_arg4 m ρ c) (w1_v12 m ρ c) (w1_v23 m ρ c))

/-- An input array of the first launch is left as entered. -/
theorem w2_v12 (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))

/-! ### Between the launches -/

theorem w2_v1 (c : Dev nD) : (W2 m ρ c (Proc.devRef .tc main_v1) : S800000.Idx → BitVec 32) = val_main_v1 (F := Ideal) (A1 m c) :=
  (W2_of_ne m ρ c main_v1 (by decide)).trans (w1_v1 m ρ c)
theorem w2_v3 (c : Dev nD) : (W2 m ρ c (Proc.devRef .tc main_v3) : S800000.Idx → BitVec 32) = val_main_v3 (F := Ideal) (A1 m c) :=
  (W2_of_ne m ρ c main_v3 (by decide)).trans (w1_v3 m ρ c)
theorem w2_arg5 (c : Dev nD) : (W2 m ρ c (Proc.devRef .tc main_arg5) : S128x64.Idx → EReal) = A5 m c :=
  (W2_of_ne m ρ c main_arg5 (by decide)).trans (w1_arg5 m ρ c)
theorem w2_arg6 (c : Dev nD) : (W2 m ρ c (Proc.devRef .tc main_arg6) : S64.Idx → EReal) = A6 m c :=
  (W2_of_ne m ρ c main_arg6 (by decide)).trans (w1_arg6 m ρ c)
theorem w2_arg7 (c : Dev nD) : (W2 m ρ c (Proc.devRef .tc main_arg7) : S128x64.Idx → EReal) = A7 m c :=
  (W2_of_ne m ρ c main_arg7 (by decide)).trans (w1_arg7 m ρ c)

/-- The second layer's summed neighbour features: the reference's gather and scatter-add of the first layer's result. -/
theorem w3_v34 (c : Dev nD) : (W3 m ρ c (Proc.devRef .tc main_v34) : S50000x128.Idx → EReal)
    = val_main_v43 (F := Ideal) (A0 m c) (A1 m c) (A2 m c) (A3 m c) (A4 m c) := by
  show StableHlo.after hostOps1 (W2 m ρ c) (Proc.devRef .tc main_v34) = _
  after_results_simp
  rw [w2_v24 m ρ c, w2_v1 m ρ c, w2_v3 m ρ c]
  rfl

theorem w3_v24 (c : Dev nD) : (W3 m ρ c (Proc.devRef .tc main_v24) : S50000x128.Idx → EReal)
    = val_main_v29 (F := Ideal) (A0 m c) (A1 m c) (A2 m c) (A3 m c) (A4 m c) := by
  have e : W3 m ρ c (Proc.devRef .tc main_v24) = W2 m ρ c (Proc.devRef .tc main_v24) := by
    show StableHlo.after hostOps1 (W2 m ρ c) (Proc.devRef .tc main_v24) = _
    after_results_simp <;> rfl
  exact e.trans (w2_v24 m ρ c)

theorem w3_v12 (c : Dev nD) : W3 m ρ c (Proc.devRef .tc main_v12) = W1 m ρ c (Proc.devRef .tc main_v12) := by
  have e : W3 m ρ c (Proc.devRef .tc main_v12) = W2 m ρ c (Proc.devRef .tc main_v12) := by
    show StableHlo.after hostOps1 (W2 m ρ c) (Proc.devRef .tc main_v12) = _
    after_results_simp <;> rfl
  exact e.trans (w2_v12 m ρ c)

theorem w3_arg5 (c : Dev nD) : (W3 m ρ c (Proc.devRef .tc main_arg5) : S128x64.Idx → EReal) = A5 m c := by
  have e : W3 m ρ c (Proc.devRef .tc main_arg5) = W2 m ρ c (Proc.devRef .tc main_arg5) := by
    show StableHlo.after hostOps1 (W2 m ρ c) (Proc.devRef .tc main_arg5) = _
    after_results_simp <;> rfl
  exact e.trans (w2_arg5 m ρ c)

theorem w3_arg7 (c : Dev nD) : (W3 m ρ c (Proc.devRef .tc main_arg7) : S128x64.Idx → EReal) = A7 m c := by
  have e : W3 m ρ c (Proc.devRef .tc main_arg7) = W2 m ρ c (Proc.devRef .tc main_arg7) := by
    show StableHlo.after hostOps1 (W2 m ρ c) (Proc.devRef .tc main_arg7) = _
    after_results_simp <;> rfl
  exact e.trans (w2_arg7 m ρ c)

/-- The bias of the second layer as a row. -/
theorem w3_v35 (c : Dev nD) (q : Fin 64) : (W3 m ρ c (Proc.devRef .tc main_v35) : S1x64.Idx → EReal) (ix2 (0 : Fin 1) q) = A6 m c (ix1 q) := by
  have e : (W3 m ρ c (Proc.devRef .tc main_v35) : S1x64.Idx → EReal) = shapeCast S1x64 (A6 m c) shapeCasts_S64_S1x64 := by
    show StableHlo.after hostOps1 (W2 m ρ c) (Proc.devRef .tc main_v35) = _
    after_results_simp
    rw [w2_arg6 m ρ c]
    rfl
  rw [e, shapeCast_a_1a_apply]

/-! ### After the second launch -/

/-- THE RESULT: the second launch's output array is the reference's result term of the launch arguments. -/
theorem out_value (c : Dev nD) : (W4 m ρ c (Proc.devRef .tc main_v36) : S50000x64.Idx → EReal)
    = val_main_v58 (F := Ideal) (A0 m c) (A1 m c) (A2 m c) (A3 m c) (A4 m c) (A5 m c) (A6 m c) (A7 m c) :=
  (W4_arr m ρ c 6).trans (region1_value (V3 m ρ) c (A0 m c) (A1 m c) (A2 m c) (A3 m c) (A4 m c) (A5 m c) (A6 m c) (A7 m c)
    (w3_v34 m ρ c) (w3_v24 m ρ c) (w3_arg5 m ρ c) (w3_arg7 m ρ c)
    (fun p => (congrFun (w3_v12 m ρ c) _).trans ((w1_v12 m ρ c p).trans (by rw [count_again])))
    (w3_v35 m ρ c))

end Cert.Sage.Bridge

end
-- ==== Proof.lean ====
/-
  A two-layer graph convolution (mean aggregation over incoming edges, a linear map of the mean plus a linear map of the
  node's own features plus a bias; `max(·, 0)` after the first layer), computed two ways on the extended reals.

  The kernel program gathers and scatter-adds on the host, counts each node's incoming edges ONCE, forms the column
  `inv = 1 / max(cnt, 1)`, and runs one launch per layer over 25 blocks of 2000 nodes; a launch's body computes
      (agg · inv) · W_l + x · W_r + b
  (after the first layer also the maximum with zero). The reference computes, per layer,
      (agg / max(cnt, 1)) · W_l + b + x · W_r,
  counting the incoming edges anew in each layer, with the same gather and scatter-add.

  They agree at every index for every input, with no use of finiteness:
  * `max(cnt, 1) ≥ 1` is never zero, so `a · (1 / max(cnt,1))` and `a / max(cnt,1)` are both `a · (max(cnt,1))⁻¹`;
  * the three summands are regrouped by commutativity and associativity of addition;
  * the roundings to bf16 are the identity, a matrix product into a zero accumulator is the plain sum over the contracted
    index, and a row of the output depends only on the same row of the inputs, so the 25 blocks are the blocks of one
    whole-array function;
  * the gather, the scatter-adds and the count are the same operations of the same arrays on both sides.
  The three frames are the generated ones (the reference's from its generated run); the ideal pass rewrote nothing, so
  `preserves` is `True`.
-/
import proofs.«177367_j14491219657351_2_alg».proof.Defs
import proofs.«177367_j14491219657351_2_alg».proof.Proof.Gen.Kernel
import proofs.«177367_j14491219657351_2_alg».proof.Proof.Gen.Kernel.Frame
import proofs.«177367_j14491219657351_2_alg».proof.Proof.Gen.KernelIdeal
import proofs.«177367_j14491219657351_2_alg».proof.Proof.Gen.KernelIdeal.Frame
import proofs.«177367_j14491219657351_2_alg».proof.Proof.Gen.ReferenceIdeal
import proofs.«177367_j14491219657351_2_alg».proof.Proof.Gen.ReferenceIdeal.Run
import proofs.«177367_j14491219657351_2_alg».proof.Proof.Gen.ReferenceIdeal.Read
import proofs.«177367_j14491219657351_2_alg».proof.Proof.Gen.Pre_finite_inputs
import proofs.«177367_j14491219657351_2_alg».proof.Proof.KernelRun
import proofs.«177367_j14491219657351_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the result array at ONE function of the arguments: the
    reference's result term. The kernel program's last buffer contents hold it (`Cert.Sage.Bridge.out_value`); the reference's
    run ends at it by definition. -/
theorem algebraic : Cert.algebraic_KernelIdeal_ReferenceIdeal := by
  intro m ρ m' ρ' _ hagree
  refine ⟨fun c => Cert.ReferenceIdeal.Read.val_main_v58 (F := Ideal) (Cert.Sage.Bridge.A0 m c) (Cert.Sage.Bridge.A1 m c)
    (Cert.Sage.Bridge.A2 m c) (Cert.Sage.Bridge.A3 m c) (Cert.Sage.Bridge.A4 m c) (Cert.Sage.Bridge.A5 m c) (Cert.Sage.Bridge.A6 m c)
    (Cert.Sage.Bridge.A7 m c), ?_, ?_⟩
  · exact (θ_run Cert.KernelIdeal.defs _ _).mono (fun r h c =>
      ⟨(h c _ (Cert.KernelIdeal.Gen.mem_uc Cert.KernelIdeal.main_v36 (by decide))).trans (Cert.Sage.Bridge.out_value m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c)⟩)
      (Cert.Sage.Kern.run_all (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v58_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
